-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x19 : Shape := ⟨2, ![64, 19]⟩
abbrev S19 : Shape := ⟨1, ![19]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x19 : S_.BroadcastsInDim S64x19 (![] : Fin 0 → Fin S64x19.rank)
  reducesTo_S64x19_S_d0_1 : S64x19.ReducesTo [0, 1] S_
  bcast_S_S19 : S_.BroadcastsInDim S19 (![] : Fin 0 → Fin S19.rank)
  reducesTo_S19_S_d0 : S19.ReducesTo [0] S_

variable [Facts]

def fn_part1 {F : FTy → Type} [FloatOps F] (main_arg5 : FVec F S19 .f32) (main_v13 : IVec S_ 1) (main_v16 : IVec S64x19 1) : IVec S_ 1 :=
  let main_c_5 : IVec S_ 1 := constantI S_ 1 1#1
  let main_v17 : IVec S_ 1 := (fun x v => Host.reduce IntOp.andi x v reducesTo_S64x19_S_d0_1 h_S_) main_v16 main_c_5
  let main_v18 : IVec S_ 1 := andi main_v13 main_v17
  let main_v19 : FVec F S19 .f32 := Host.absf main_arg5
  let main_cst_6 : FVec F S_ .f32 := constant S_ .f32 0x7F800000#32
  let main_v20 : FVec F S19 .f32 := broadcastInDim S19 ![] bcast_S_S19 main_cst_6
  let main_v21 : IVec S19 1 := cmpf .olt main_v19 main_v20
  let main_c_7 : IVec S_ 1 := constantI S_ 1 1#1
  let main_v22 : IVec S_ 1 := (fun x v => Host.reduce IntOp.andi x v reducesTo_S19_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x19 .f32) (main_arg5 : FVec F S19 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x19 .f32 := Host.absf main_arg4
  let main_cst_4 : FVec F S_ .f32 := constant S_ .f32 0x7F800000#32
  let main_v15 : FVec F S64x19 .f32 := broadcastInDim S64x19 ![] bcast_S_S64x19 main_cst_4
  let main_v16 : IVec S64x19 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x19 : Shape := ⟨2, ![64, 19]⟩
abbrev S19 : Shape := ⟨1, ![19]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S100000x19 : Shape := ⟨2, ![100000, 19]⟩
abbrev S5000x19 : Shape := ⟨2, ![5000, 19]⟩
abbrev S1700000x19 : Shape := ⟨2, ![1700000, 19]⟩
abbrev S1x19 : Shape := ⟨2, ![1, 19]⟩

abbrev nBuf : Space → Nat
  | .hbm => 77
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x19, .f32⟩
  | .hbm, ⟨5, _⟩ => ⟨S19, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x19, .f32⟩
  | .hbm, ⟨59, _⟩ => ⟨S1700000x1, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x19, .f32⟩
  | .hbm, ⟨69, _⟩ => ⟨S1700000x19, .f32⟩
  | .hbm, ⟨70, _⟩ => ⟨S1700000x19, .f32⟩
  | .hbm, ⟨71, _⟩ => ⟨S_, .f32⟩
  | .hbm, ⟨72, _⟩ => ⟨S100000x19, .f32⟩
  | .hbm, ⟨73, _⟩ => ⟨S1700000x1, .i32⟩
  | .hbm, ⟨74, _⟩ => ⟨S100000x19, .f32⟩
  | .hbm, ⟨75, _⟩ => ⟨S1x19, .f32⟩
  | .hbm, ⟨76, _⟩ => ⟨S100000x19, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x19, .f32⟩
  | .local _ .vmem, ⟨13, _⟩ => ⟨S5000x19, .f32⟩
  | .local _ .vmem, ⟨14, _⟩ => ⟨S5000x19, .f32⟩
  | .local _ .vmem, ⟨15, _⟩ => ⟨S5000x19, .f32⟩
  | .local _ .vmem, ⟨16, _⟩ => ⟨S5000x19, .f32⟩
  | .local _ .vmem, ⟨17, _⟩ => ⟨S1x19, .f32⟩
  | .local _ .vmem, ⟨18, _⟩ => ⟨S5000x19, .f32⟩
  | .local _ .vmem, ⟨19, _⟩ => ⟨S5000x19, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x19 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x19 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x19 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x19 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x19 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x19_S64x19_0_0 : ∀ a, (![0, 0] : Fin 2 → Nat) a + S64x19.size a ≤ S64x19.size a
  h_S64x19 : 0 < S64x19.numel
  inb_S5000x19_S5000x19_0_0 : ∀ a, (![0, 0] : Fin 2 → Nat) a + S5000x19.size a ≤ S5000x19.size a
  h_S5000x19 : 0 < S5000x19.numel
  bcast_S1700000x1_S1700000x19_0_1 : S1700000x1.BroadcastsInDim S1700000x19 (![0, 1] : Fin 2 → Fin S1700000x19.rank)
  bcast_S_S100000x19 : S_.BroadcastsInDim S100000x19 (![] : Fin 0 → Fin S100000x19.rank)
  shapeCasts_S19_S1x19 : S19.ShapeCasts S1x19
  shapeCasts_S5000x19_S5000x19 : S5000x19.ShapeCasts S5000x19
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S5000x19 : S1x19.Broadcasts S5000x19
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x19_S5000x19_1_0_0_1_n_n_wf : DotDims.WF S5000x64 S64x19 S5000x19 [1] [0] [0] [1] [] []
  gather_S100000x19_S1700000x1_S1700000x19_1_0_n_n_0_1_119_wf : GatherDims.WF S100000x19 S1700000x1 S1700000x19 [1] [0] [] [0] [] 1 ![1, 19]
  scatter_S100000x19_S1700000x1_S1700000x19_1_0_0_1_wf : ScatterDims.WF S100000x19 S1700000x1 S1700000x19 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x19.size a ≤ S64x19.size a
  hwx2_1 : ∀ i : grid2.Coords, EltTy.bits .f32 = 32 ∨ (Rect.block (s := S64x19) S64x19.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x19.size a ≤ S100000x19.size a
  hwx2_2 : ∀ i : grid2.Coords, EltTy.bits .f32 = 32 ∨ (Rect.block (s := S100000x19) S5000x19.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x19.size a ≤ S100000x19.size a
  hwx3_0 : ∀ i : grid3.Coords, EltTy.bits .f32 = 32 ∨ (Rect.block (s := S100000x19) S5000x19.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x19.size a ≤ S1x19.size a
  hwx3_1 : ∀ i : grid3.Coords, EltTy.bits .f32 = 32 ∨ (Rect.block (s := S1x19) S1x19.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x19.size a ≤ S100000x19.size a
  hwx3_2 : ∀ i : grid3.Coords, EltTy.bits .f32 = 32 ∨ (Rect.block (s := S100000x19) S5000x19.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x19_S5000x19_1_0_0_1_n_n : DotDims S5000x64 S64x19 S5000x19 where
  lhsContracting := [1]
  rhsContracting := [0]
  lhsNonContracting := [0]
  rhsNonContracting := [1]
  lhsBatch := []
  rhsBatch := []
  wf := dot_S5000x64_S64x19_S5000x19_1_0_0_1_n_n_wf
def gather_S100000x19_S1700000x1_S1700000x19_1_0_n_n_0_1_119 : GatherDims S100000x19 S1700000x1 S1700000x19 where
  offsetDims := [1]
  collapsedSliceDims := [0]
  operandBatchingDims := []
  startIndicesBatchingDims := []
  startIndexMap := [0]
  indexVectorDim := 1
  sliceSizes := ![1, 19]
  wf := gather_S100000x19_S1700000x1_S1700000x19_1_0_n_n_0_1_119_wf
def scatter_S100000x19_S1700000x1_S1700000x19_1_0_0_1 : ScatterDims S100000x19 S1700000x1 S1700000x19 where
  updateWindowDims := [1]
  insertedWindowDims := [0]
  scatterDimsToOperandDims := [0]
  indexVectorDim := 1
  wf := scatter_S100000x19_S1700000x1_S1700000x19_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x19.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x19.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x19.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x19.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x19.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x19 : Shape := ⟨2, ![64, 19]⟩
abbrev S19 : Shape := ⟨1, ![19]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x19 : Shape := ⟨2, ![100000, 19]⟩
abbrev S1700000x19 : Shape := ⟨2, ![1700000, 19]⟩
abbrev S1x19 : Shape := ⟨2, ![1, 19]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x19, .f32⟩
  | .hbm, ⟨5, _⟩ => ⟨S19, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x19, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x19, .f32⟩
  | .hbm, ⟨73, _⟩ => ⟨S1700000x19, .f32⟩
  | .hbm, ⟨74, _⟩ => ⟨S1700000x19, .f32⟩
  | .hbm, ⟨75, _⟩ => ⟨S_, .f32⟩
  | .hbm, ⟨76, _⟩ => ⟨S100000x19, .f32⟩
  | .hbm, ⟨77, _⟩ => ⟨S1700000x1, .i32⟩
  | .hbm, ⟨78, _⟩ => ⟨S100000x19, .f32⟩
  | .hbm, ⟨79, _⟩ => ⟨S1x19, .f32⟩
  | .hbm, ⟨80, _⟩ => ⟨S100000x19, .f32⟩
  | .hbm, ⟨81, _⟩ => ⟨S100000x19, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x19_0_1 : S1700000x1.BroadcastsInDim S1700000x19 (![0, 1] : Fin 2 → Fin S1700000x19.rank)
  bcast_S_S100000x19 : S_.BroadcastsInDim S100000x19 (![] : Fin 0 → Fin S100000x19.rank)
  bcast_S19_S1x19_1 : S19.BroadcastsInDim S1x19 (![1] : Fin 1 → Fin S1x19.rank)
  bcast_S1x19_S100000x19_0_1 : S1x19.BroadcastsInDim S100000x19 (![0, 1] : Fin 2 → Fin S100000x19.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x19_S100000x19_1_0_0_1_n_n_wf : DotDims.WF S100000x64 S64x19 S100000x19 [1] [0] [0] [1] [] []
  gather_S100000x19_S1700000x1_S1700000x19_1_0_n_n_0_1_119_wf : GatherDims.WF S100000x19 S1700000x1 S1700000x19 [1] [0] [] [0] [] 1 ![1, 19]
  scatter_S100000x19_S1700000x1_S1700000x19_1_0_0_1_wf : ScatterDims.WF S100000x19 S1700000x1 S1700000x19 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x19_S100000x19_1_0_0_1_n_n : DotDims S100000x64 S64x19 S100000x19 where
  lhsContracting := [1]
  rhsContracting := [0]
  lhsNonContracting := [0]
  rhsNonContracting := [1]
  lhsBatch := []
  rhsBatch := []
  wf := dot_S100000x64_S64x19_S100000x19_1_0_0_1_n_n_wf
def gather_S100000x19_S1700000x1_S1700000x19_1_0_n_n_0_1_119 : GatherDims S100000x19 S1700000x1 S1700000x19 where
  offsetDims := [1]
  collapsedSliceDims := [0]
  operandBatchingDims := []
  startIndicesBatchingDims := []
  startIndexMap := [0]
  indexVectorDim := 1
  sliceSizes := ![1, 19]
  wf := gather_S100000x19_S1700000x1_S1700000x19_1_0_n_n_0_1_119_wf
def scatter_S100000x19_S1700000x1_S1700000x19_1_0_0_1 : ScatterDims S100000x19 S1700000x1 S1700000x19 where
  updateWindowDims := [1]
  insertedWindowDims := [0]
  scatterDimsToOperandDims := [0]
  indexVectorDim := 1
  wf := scatter_S100000x19_S1700000x1_S1700000x19_1_0_0_1_wf

class Facts : Prop extends Facts₀ where

variable [Facts]
-- ==== Proof.MatmulAtIndex.lean ====
/-
  The two dense transforms of the network, read at one entry.

  Each grid point multiplies a block of 5000 rows of node features (64 columns) by a whole weight matrix
  (64 × 64 in the first layer, 64 × 19 in the second) into a zero accumulator. Over the extended reals the
  conversion of both operands to a narrower float format is the identity and the accumulator contributes
  nothing, so entry (p, q) of the product is the plain sum over the 64 contracted positions k of
  x(p, k) · w(k, q). The contraction index of the printed dimension numbers is a one-axis index; it is
  re-indexed by k : Fin 64, and the operand indices it selects are (p, k) on the left and (k, q) on the right.
-/
import proofs.«101911_j71854802862599_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx

/-! ## First layer: a 5000 × 64 block times the 64 × 64 weights -/

/-- The left operand index of output entry `i` at contraction position `s` keeps the row of `i`. -/
theorem mm64_lhs_row (i : S5000x64.Idx) (s : dot_S5000x64_S64x64_S5000x64_1_0_0_1_n_n.contr.Idx) :
    (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and its column is the contraction position. -/
theorem mm64_lhs_col (i : S5000x64.Idx) (s : dot_S5000x64_S64x64_S5000x64_1_0_0_1_n_n.contr.Idx) :
    (dot_S5000x64_S64x64_S5000x64_1_0_0_1_n_n.lhsIdx i s 1).val = (s ⟨0, by decide⟩).val :=
  dot_S5000x64_S64x64_S5000x64_1_0_0_1_n_n.lhsIdx_val_of_single rfl i s

/-- The right operand index has the contraction position as its row … -/
theorem mm64_rhs_row (i : S5000x64.Idx) (s : dot_S5000x64_S64x64_S5000x64_1_0_0_1_n_n.contr.Idx) :
    (dot_S5000x64_S64x64_S5000x64_1_0_0_1_n_n.rhsIdx i s 0).val = (s ⟨0, by decide⟩).val :=
  dot_S5000x64_S64x64_S5000x64_1_0_0_1_n_n.rhsIdx_val_of_single rfl i s

/-- … and the column of `i` as its column. -/
theorem mm64_rhs_col (i : S5000x64.Idx) (s : dot_S5000x64_S64x64_S5000x64_1_0_0_1_n_n.contr.Idx) :
    (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry (p, q) of the block product into the zero accumulator is the sum over k of x(p, k) · w(k, q). -/
theorem mm64_apply (x : FVec Ideal S5000x64 .bf16) (w : FVec Ideal S64x64 .bf16) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact mm64_lhs_row _ _
      | ⟨1, _⟩ => exact (mm64_lhs_col _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (mm64_rhs_row _ _).trans hk
      | ⟨1, _⟩ => exact mm64_rhs_col _ _)
  rw [el, er]

/-- The first layer's stored value at (p, q): the format change of both loaded blocks is the identity. -/
theorem layer1_product_apply (x : Vec Ideal S5000x64 .f32) (w : Vec Ideal S64x64 .f32) (p : Fin 5000) (q : Fin 64) :
    k0_pay1 x w (ix2 p q) = ∑ k : Fin 64, x (ix2 p k) * w (ix2 k q) := by
  unfold k0_pay1
  exact mm64_apply _ _ p q

/-! ## Second layer: a 5000 × 64 block times the 64 × 19 weights -/

theorem mm19_lhs_row (i : S5000x19.Idx) (s : dot_S5000x64_S64x19_S5000x19_1_0_0_1_n_n.contr.Idx) :
    (dot_S5000x64_S64x19_S5000x19_1_0_0_1_n_n.lhsIdx i s 0).val = (i 0).val := by
  unfold DotDims.lhsIdx
  rw [dif_neg (show ¬(0 : Fin S5000x64.rank) ∈ dot_S5000x64_S64x19_S5000x19_1_0_0_1_n_n.lhsBatch by decide),
    dif_pos (show (0 : Fin S5000x64.rank) ∈ dot_S5000x64_S64x19_S5000x19_1_0_0_1_n_n.lhsNonContracting by decide)]
  rfl

theorem mm19_lhs_col (i : S5000x19.Idx) (s : dot_S5000x64_S64x19_S5000x19_1_0_0_1_n_n.contr.Idx) :
    (dot_S5000x64_S64x19_S5000x19_1_0_0_1_n_n.lhsIdx i s 1).val = (s ⟨0, by decide⟩).val :=
  dot_S5000x64_S64x19_S5000x19_1_0_0_1_n_n.lhsIdx_val_of_single rfl i s

theorem mm19_rhs_row (i : S5000x19.Idx) (s : dot_S5000x64_S64x19_S5000x19_1_0_0_1_n_n.contr.Idx) :
    (dot_S5000x64_S64x19_S5000x19_1_0_0_1_n_n.rhsIdx i s 0).val = (s ⟨0, by decide⟩).val :=
  dot_S5000x64_S64x19_S5000x19_1_0_0_1_n_n.rhsIdx_val_of_single rfl i s

theorem mm19_rhs_col (i : S5000x19.Idx) (s : dot_S5000x64_S64x19_S5000x19_1_0_0_1_n_n.contr.Idx) :
    (dot_S5000x64_S64x19_S5000x19_1_0_0_1_n_n.rhsIdx i s 1).val = (i 1).val := by
  unfold DotDims.rhsIdx
  rw [dif_neg (show ¬(1 : Fin S64x19.rank) ∈ dot_S5000x64_S64x19_S5000x19_1_0_0_1_n_n.rhsBatch by decide),
    dif_pos (show (1 : Fin S64x19.rank) ∈ dot_S5000x64_S64x19_S5000x19_1_0_0_1_n_n.rhsNonContracting by decide)]
  rfl

/-- Entry (p, q) of the block product into the zero accumulator is the sum over k of x(p, k) · w(k, q). -/
theorem mm19_apply (x : FVec Ideal S5000x64 .bf16) (w : FVec Ideal S64x19 .bf16) (p : Fin 5000) (q : Fin 19) :
    matmul dot_S5000x64_S64x19_S5000x19_1_0_0_1_n_n none x w (constant (F := Ideal) S5000x19 .f32 0x00000000#32) (ix2 p q)
      = ∑ k : Fin 64, x (ix2 p k) * w (ix2 k q) := by
  simp only [matmul]
  rw [Ideal.matmul_constant_zero_apply,
    ← Equiv.sum_comp (contrEquiv1 dot_S5000x64_S64x19_S5000x19_1_0_0_1_n_n 64 rfl rfl).symm]
  refine Finset.sum_congr rfl fun k _ => ?_
  have hk := contrEquiv1_symm_val dot_S5000x64_S64x19_S5000x19_1_0_0_1_n_n 64 rfl rfl k
  have el : dot_S5000x64_S64x19_S5000x19_1_0_0_1_n_n.lhsIdx (ix2 p q)
      ((contrEquiv1 dot_S5000x64_S64x19_S5000x19_1_0_0_1_n_n 64 rfl rfl).symm k) = ix2 p k :=
    funext fun a => Fin.ext (by
      match a with
      | ⟨0, _⟩ => exact mm19_lhs_row _ _
      | ⟨1, _⟩ => exact (mm19_lhs_col _ _).trans hk)
  have er : dot_S5000x64_S64x19_S5000x19_1_0_0_1_n_n.rhsIdx (ix2 p q)
      ((contrEquiv1 dot_S5000x64_S64x19_S5000x19_1_0_0_1_n_n 64 rfl rfl).symm k) = ix2 k q :=
    funext fun a => Fin.ext (by
      match a with
      | ⟨0, _⟩ => exact (mm19_rhs_row _ _).trans hk
      | ⟨1, _⟩ => exact mm19_rhs_col _ _)
  rw [el, er]

/-- The second layer's stored value at (p, q): the same-shape cast of the loaded block and the format change of
    both operands are the identity. -/
theorem layer2_product_apply (x : Vec Ideal S5000x64 .f32) (w : Vec Ideal S64x19 .f32) (p : Fin 5000) (q : Fin 19) :
    k2_pay1 x w (ix2 p q) = ∑ k : Fin 64, x (ix2 p k) * w (ix2 k q) := by
  unfold k2_pay1
  rw [shapeCast_self]
  exact mm19_apply _ _ p q

end Cert.KernelIdeal.Payload

end
-- ==== Proof.Spec.lean ====
/-
  The four dense steps of the two-layer graph convolution, each as ONE function of whole arrays.

  With N = 100000 nodes, a feature array x (N × 64) and weights w (64 × d), the transform is
      product x w (r, q) = Σ_k x(r, k) · w(k, q),
  and with an aggregated array a (N × d) and a bias row b (1 × d) the bias pass is
      a(r, q) + b(0, q),   rectified (max with the zero word's value) in the first layer.
  These are what the tiled passes compute block by block, and what the plain array program computes at once.
-/
import Idealize.ShloMosaic.PureOps.Ideal
import Idealize.ShloMosaic.Lib.ValueIdx

noncomputable section

namespace GcnSpec

open Idealize.ShloMosaic Idealize.ShloMosaic.ValueIdx

/-- The first layer's transform: N × 64 features times 64 × 64 weights. -/
def product64 (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (i 0) k) * w (ix2 k (i 1))

/-- The second layer's transform: N × 64 hidden features times 64 × 19 weights. -/
def product19 (x : (⟨2, ![100000, 64]⟩ : Shape).Idx → EReal) (w : (⟨2, ![64, 19]⟩ : Shape).Idx → EReal) :
    (⟨2, ![100000, 19]⟩ : Shape).Idx → EReal :=
  fun i => ∑ k : Fin 64, x (ix2 (i 0) k) * w (ix2 k (i 1))

/-- The first layer's bias pass: add the bias row to every row, then rectify. -/
def biasRelu64 (a : (⟨2, ![100000, 64]⟩ : Shape).Idx → EReal) (b : (⟨2, ![1, 64]⟩ : Shape).Idx → EReal) :
    (⟨2, ![100000, 64]⟩ : Shape).Idx → EReal :=
  fun i => max (a i + b (ix2 (0 : Fin 1) (i 1))) (Ideal.ofBits .f32 0x00000000#32)

/-- The second layer's bias pass: add the bias row to every row. -/
def bias19 (a : (⟨2, ![100000, 19]⟩ : Shape).Idx → EReal) (b : (⟨2, ![1, 19]⟩ : Shape).Idx → EReal) :
    (⟨2, ![100000, 19]⟩ : Shape).Idx → EReal :=
  fun i => a i + b (ix2 (0 : Fin 1) (i 1))

end GcnSpec

end
-- ==== Proof.Layer1Transform.lean ====
/-
  The first layer's transform over the whole node array.

  The pass runs 20 grid points; point t reads rows 5000·t … 5000·t + 4999 of the feature array (all 64
  columns) and the whole weight matrix, and writes the same rows of the result. Entry (p, q) of what it writes
  is Σ_k x(5000·t + p, k) · w(k, q): the block of one function of the two whole arrays. Every row r lies in the
  block of point r / 5000, so after the pass the result array is that function everywhere — whatever the
  contents of the buffers were when the pass was entered.
-/
import proofs.«101911_j71854802862599_1_alg».proof.Proof.Gen.KernelIdeal.Frame
import proofs.«101911_j71854802862599_1_alg».proof.Proof.MatmulAtIndex
import proofs.«101911_j71854802862599_1_alg».proof.Proof.Spec
import Idealize.ShloMosaic.Lib.Pipeline.Value
import Idealize.ShloMosaic.Lib.ValueIdx

noncomputable section

set_option maxRecDepth 16384

namespace Cert.KernelIdeal.Layer1Transform

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The pass has 20 grid points. -/
theorem point_lt (t : Fin cfg0.N) : t.val < 20 := lt_of_lt_of_eq t.isLt N_0

/-- The printed index maps, decided over the grid: the feature and result windows move down the rows with the
    point, the weight window stays put. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of point t is rows 5000·t … of the feature array. -/
theorem features_block (c : Dev nD) (t : Fin cfg0.N) (p : Fin 5000) (k : Fin 64) :
    iblk0 V c 0 t (ix2 p k : S5000x64.Idx)
      = V c main_arg0 (ix2 ⟨t.val * 5000 + p.val, by have := point_lt t; omega⟩ k : S100000x64.Idx) := by
  show V c main_arg0 (((cfg0.win 0).blk t).view.emb (ix2 p k : S5000x64.Idx)) = _
  refine congrArg (V c main_arg0) (funext fun a => Fin.ext ?_)
  obtain ⟨e0, e1, -⟩ := index_maps t
  match a with
  | ⟨0, _⟩ => show win0_0.index t (0 : Fin 2) * 5000 + 1 * p.val = t.val * 5000 + p.val; omega
  | ⟨1, _⟩ => show win0_0.index t (1 : Fin 2) * 64 + 1 * k.val = k.val; omega

/-- The weight block of every point is the whole weight matrix. -/
theorem weights_block (c : Dev nD) (t : Fin cfg0.N) (k : Fin 64) (q : Fin 64) :
    iblk0 V c 1 t (ix2 k q : S64x64.Idx) = V c main_arg2 (ix2 k q : S64x64.Idx) := by
  show V c main_arg2 (((cfg0.win 1).blk t).view.emb (ix2 k q : S64x64.Idx)) = _
  refine congrArg (V c main_arg2) (funext fun a => Fin.ext ?_)
  obtain ⟨-, -, e2, e3, -⟩ := index_maps t
  match a with
  | ⟨0, _⟩ => show win0_1.index t (0 : Fin 2) * 64 + 1 * k.val = k.val; omega
  | ⟨1, _⟩ => show win0_1.index t (1 : Fin 2) * 64 + 1 * q.val = q.val; omega

/-- What a point stores at block entry y, when its two loaded blocks are rows 5000·t … of X and the whole of W,
    is the transform of X and W at the array index i that y sits at. -/
theorem point_value (x0 : Vec Ideal S5000x64 .f32) (x1 : Vec Ideal S64x64 .f32)
    (X : S100000x64.Idx → EReal) (W : S64x64.Idx → EReal) (t : ℕ) (ht : t < 20)
    (hx : ∀ (p : Fin 5000) (k : Fin 64), x0 (ix2 p k) = X (ix2 ⟨t * 5000 + p.val, by omega⟩ k))
    (hw : ∀ (k : Fin 64) (q : Fin 64), x1 (ix2 k q) = W (ix2 k q))
    (y : S5000x64.Idx) (i : S100000x64.Idx) (h0 : (i 0).val = t * 5000 + (y 0).val) (h1 : (i 1).val = (y 1).val) :
    k0_pay1 x0 x1 y = GcnSpec.product64 X W i := by
  obtain ⟨p, q, rfl⟩ : ∃ (p : Fin 5000) (q : Fin 64), y = ix2 p q := ⟨y 0, y 1, eq_ix2 y⟩
  have hb : t * 5000 + p.val < 100000 := by have := p.isLt; omega
  obtain ⟨r, s, rfl⟩ : ∃ (r : Fin 100000) (s : Fin 64), i = ix2 r s := ⟨i 0, i 1, eq_ix2 i⟩
  have hr : r = ⟨t * 5000 + p.val, hb⟩ := Fin.ext h0
  have hs : s = q := Fin.ext h1
  subst hr hs
  rw [Payload.layer1_product_apply]
  exact Finset.sum_congr rfl fun k _ => congrArg₂ (· * ·) (hx p k) (hw k s)

/-- WHAT POINT t WRITES BACK is block t of the transform of the two arrays as the pass finds them. -/
theorem flushed_eq (c : Dev nD) (t : Fin cfg0.N) :
    (dat0 V c).flushed 2 t
      = ((cfg0.win 2).blk t).view.read (Elt Ideal) (GcnSpec.product64 (V c main_arg0) (V c main_arg2)) := by
  show (cfg0.win 2).cut (grid0.coords t) ((dat0 V c).after 2 t) = _
  rw [after0_2]
  unfold out0_2
  rw [View.canon_unit_zero origin]
  simp only [View.ld_unit_zero (S := S5000x64) origin, View.ld_unit_zero (S := S64x64) origin]
  funext j
  obtain ⟨-, -, -, -, e4, e5⟩ := index_maps t
  refine point_value (iblk0 V c 0 t) (iblk0 V c 1 t) (V c main_arg0) (V c main_arg2) t.val (point_lt t)
    (features_block V c t) (weights_block V c t) j (((cfg0.win 2).blk t).view.emb j) ?_ ?_
  · show win0_2.index t (0 : Fin 2) * 5000 + 1 * (j 0).val = t.val * 5000 + (j 0).val; omega
  · show win0_2.index t (1 : Fin 2) * 64 + 1 * (j 1).val = (j 1).val; omega

/-- An index of the result array is in point t's block iff each coordinate is in the block's range on its axis. -/
theorem mem_block (t : Fin cfg0.N) (i : S100000x64.Idx) :
    i ∈ ((cfg0.win 2).blk t).view.set
      ↔ ∀ a : Fin 2, win0_2.index t a * S5000x64.size a ≤ (i a).val
          ∧ (i a).val < win0_2.index t a * S5000x64.size a + S5000x64.size a := by
  show i ∈ ((View.whole main_v27).slice (win0_2.rect t)).set ↔ _
  rw [View.set_slice_whole, Rect.mem_set_unit]
  exact Iff.rfl

/-- Every row is in the block of the point numbered by its quotient by 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by omega⟩
  have ht : t.val = (i 0).val / 5000 := rfl
  obtain ⟨-, -, -, -, e4, e5⟩ := index_maps t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE RESULT ARRAY after the pass is the transform of the feature and weight arrays as the pass found them. -/
theorem final (c : Dev nD) :
    (dat0 V c).arrAt 2 cfg0.N = GcnSpec.product64 (V c main_arg0) (V c main_arg2) :=
  (dat0 V c).arrAt_eq_of_cover 2 (GcnSpec.product64 (V c main_arg0) (V c main_arg2))
    (fun t _ => flushed_eq V c t) cover

end Cert.KernelIdeal.Layer1Transform

end
-- ==== Proof.BiasAtIndex.lean ====
/-
  The two bias passes of the network, read at one entry.

  Each grid point adds a bias row (one row of 64, or of 19, numbers) to every one of the 5000 rows of its block
  of aggregated messages; the first layer then takes the maximum with zero. The casts of a block to its own
  shape are the identity, and the bias row broadcast down the block reads, at (p, q), its one row at q. So the
  stored value at (p, q) is max (a(p, q) + b(0, q)) 0 in the first layer and a(p, q) + b(0, q) in the second.
-/
import proofs.«101911_j71854802862599_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.TcCoe Idealize.ShloMosaic.ValueIdx

/-- First layer: the rectified sum of the aggregated block and the bias row, at (p, q). -/
theorem layer1_bias_apply (a : Vec Ideal S5000x64 .f32) (b : Vec Ideal S1x64 .f32) (p : Fin 5000) (q : Fin 64) :
    k1_pay1 a b (ix2 p q) = max (a (ix2 p q) + b (ix2 (0 : Fin 1) q)) (Ideal.ofBits .f32 0x00000000#32) := by
  unfold k1_pay1
  rw [shapeCast_self, shapeCast_self]
  show max (a (ix2 p q) + broadcastTo S5000x64 b broadcasts_S1x64_S5000x64 (ix2 p q)) _ = _
  rw [broadcastTo_1b_ab_apply]
  rfl

/-- Second layer: the sum of the aggregated block and the bias row, at (p, q). -/
theorem layer2_bias_apply (a : Vec Ideal S5000x19 .f32) (b : Vec Ideal S1x19 .f32) (p : Fin 5000) (q : Fin 19) :
    k3_pay1 a b (ix2 p q) = a (ix2 p q) + b (ix2 (0 : Fin 1) q) := by
  unfold k3_pay1
  rw [shapeCast_self, shapeCast_self]
  show a (ix2 p q) + broadcastTo S5000x19 b broadcasts_S1x19_S5000x19 (ix2 p q) = _
  rw [broadcastTo_1b_ab_apply]

end Cert.KernelIdeal.Payload

end
-- ==== Proof.Layer1Bias.lean ====
/-
  The first layer's bias pass over the whole node array.

  The pass runs 20 grid points; point t reads rows 5000·t … 5000·t + 4999 of the aggregated array (all 64
  columns) and the one bias row, and writes the same rows of the result. Entry (p, q) of what it writes is
  max (a(5000·t + p, q) + b(0, q)) 0: the block of one function of the two whole arrays. Every row r lies in the
  block of point r / 5000, so after the pass the result array is that function everywhere — whatever the
  contents of the buffers were when the pass was entered.
-/
import proofs.«101911_j71854802862599_1_alg».proof.Proof.Gen.KernelIdeal.Frame
import proofs.«101911_j71854802862599_1_alg».proof.Proof.BiasAtIndex
import proofs.«101911_j71854802862599_1_alg».proof.Proof.Spec
import Idealize.ShloMosaic.Lib.Pipeline.Value
import Idealize.ShloMosaic.Lib.ValueIdx

noncomputable section

set_option maxRecDepth 16384

namespace Cert.KernelIdeal.Layer1Bias

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The pass has 20 grid points. -/
theorem point_lt (t : Fin cfg1.N) : t.val < 20 := lt_of_lt_of_eq t.isLt N_1

/-- The printed index maps, decided over the grid: the aggregated and result windows move down the rows with the
    point, the bias window stays put. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregated block of point t is rows 5000·t … of the aggregated array. -/
theorem rows_block (c : Dev nD) (t : Fin cfg1.N) (p : Fin 5000) (q : Fin 64) :
    iblk1 V c 0 t (ix2 p q : S5000x64.Idx)
      = V c main_v40 (ix2 ⟨t.val * 5000 + p.val, by have := point_lt t; omega⟩ q : S100000x64.Idx) := by
  show V c main_v40 (((cfg1.win 0).blk t).view.emb (ix2 p q : S5000x64.Idx)) = _
  refine congrArg (V c main_v40) (funext fun a => Fin.ext ?_)
  obtain ⟨e0, e1, -⟩ := index_maps t
  match a with
  | ⟨0, _⟩ => show win1_0.index t (0 : Fin 2) * 5000 + 1 * p.val = t.val * 5000 + p.val; omega
  | ⟨1, _⟩ => show win1_0.index t (1 : Fin 2) * 64 + 1 * q.val = q.val; omega

/-- The bias block of every point is the whole bias row. -/
theorem bias_block (c : Dev nD) (t : Fin cfg1.N) (u : Fin 1) (q : Fin 64) :
    iblk1 V c 1 t (ix2 u q : S1x64.Idx) = V c main_v41 (ix2 u q : S1x64.Idx) := by
  show V c main_v41 (((cfg1.win 1).blk t).view.emb (ix2 u q : S1x64.Idx)) = _
  refine congrArg (V c main_v41) (funext fun a => Fin.ext ?_)
  obtain ⟨-, -, e2, e3, -⟩ := index_maps t
  match a with
  | ⟨0, _⟩ => show win1_1.index t (0 : Fin 2) * 1 + 1 * u.val = u.val; omega
  | ⟨1, _⟩ => show win1_1.index t (1 : Fin 2) * 64 + 1 * q.val = q.val; omega

/-- What a point stores at block entry y, when its two loaded blocks are rows 5000·t … of A and the whole row B,
    is the bias pass of A and B at the array index i that y sits at. -/
theorem point_value (x0 : Vec Ideal S5000x64 .f32) (x1 : Vec Ideal S1x64 .f32)
    (A : S100000x64.Idx → EReal) (B : S1x64.Idx → EReal) (t : ℕ) (ht : t < 20)
    (hx : ∀ (p : Fin 5000) (q : Fin 64), x0 (ix2 p q) = A (ix2 ⟨t * 5000 + p.val, by omega⟩ q))
    (hb : ∀ (u : Fin 1) (q : Fin 64), x1 (ix2 u q) = B (ix2 u q))
    (y : S5000x64.Idx) (i : S100000x64.Idx) (h0 : (i 0).val = t * 5000 + (y 0).val) (h1 : (i 1).val = (y 1).val) :
    k1_pay1 x0 x1 y = GcnSpec.biasRelu64 A B i := by
  obtain ⟨p, q, rfl⟩ : ∃ (p : Fin 5000) (q : Fin 64), y = ix2 p q := ⟨y 0, y 1, eq_ix2 y⟩
  have hlt : t * 5000 + p.val < 100000 := by have := p.isLt; omega
  obtain ⟨r, s, rfl⟩ : ∃ (r : Fin 100000) (s : Fin 64), i = ix2 r s := ⟨i 0, i 1, eq_ix2 i⟩
  have hr : r = ⟨t * 5000 + p.val, hlt⟩ := Fin.ext h0
  have hs : s = q := Fin.ext h1
  subst hr hs
  exact (Payload.layer1_bias_apply x0 x1 p s).trans
    (congrArg₂ (fun a b => max (a + b) (Ideal.ofBits .f32 0x00000000#32)) (hx p s) (hb 0 s))

/-- WHAT POINT t WRITES BACK is block t of the bias pass of the two arrays as the pass finds them. -/
theorem flushed_eq (c : Dev nD) (t : Fin cfg1.N) :
    (dat1 V c).flushed 2 t
      = ((cfg1.win 2).blk t).view.read (Elt Ideal) (GcnSpec.biasRelu64 (V c main_v40) (V c main_v41)) := by
  show (cfg1.win 2).cut (grid1.coords t) ((dat1 V c).after 2 t) = _
  rw [after1_2]
  unfold out1_2
  rw [View.canon_unit_zero origin]
  simp only [View.ld_unit_zero (S := S5000x64) origin, View.ld_unit_zero (S := S1x64) origin]
  funext j
  obtain ⟨-, -, -, -, e4, e5⟩ := index_maps t
  refine point_value (iblk1 V c 0 t) (iblk1 V c 1 t) (V c main_v40) (V c main_v41) t.val (point_lt t)
    (rows_block V c t) (bias_block V c t) j (((cfg1.win 2).blk t).view.emb j) ?_ ?_
  · show win1_2.index t (0 : Fin 2) * 5000 + 1 * (j 0).val = t.val * 5000 + (j 0).val; omega
  · show win1_2.index t (1 : Fin 2) * 64 + 1 * (j 1).val = (j 1).val; omega

/-- An index of the result array is in point t's block iff each coordinate is in the block's range on its axis. -/
theorem mem_block (t : Fin cfg1.N) (i : S100000x64.Idx) :
    i ∈ ((cfg1.win 2).blk t).view.set
      ↔ ∀ a : Fin 2, win1_2.index t a * S5000x64.size a ≤ (i a).val
          ∧ (i a).val < win1_2.index t a * S5000x64.size a + S5000x64.size a := by
  show i ∈ ((View.whole main_v42).slice (win1_2.rect t)).set ↔ _
  rw [View.set_slice_whole, Rect.mem_set_unit]
  exact Iff.rfl

/-- Every row is in the block of the point numbered by its quotient by 5000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by omega⟩
  have ht : t.val = (i 0).val / 5000 := rfl
  obtain ⟨-, -, -, -, e4, e5⟩ := index_maps t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- THE RESULT ARRAY after the pass is the bias pass of the aggregated array and the bias row as the pass found them. -/
theorem final (c : Dev nD) :
    (dat1 V c).arrAt 2 cfg1.N = GcnSpec.biasRelu64 (V c main_v40) (V c main_v41) :=
  (dat1 V c).arrAt_eq_of_cover 2 (GcnSpec.biasRelu64 (V c main_v40) (V c main_v41))
    (fun t _ => flushed_eq V c t) cover

end Cert.KernelIdeal.Layer1Bias

end
-- ==== Proof.Layer2Transform.lean ====
/-
  The second layer's transform over the whole node array.

  The pass runs 20 grid points; point t reads rows 5000·t … 5000·t + 4999 of the hidden feature array (all 64
  columns) and the whole 64 × 19 weight matrix, and writes the same rows of the result. Entry (p, q) of what it writes
  is Σ_k x(5000·t + p, k) · w(k, q): the block of one function of the two whole arrays. Every row r lies in the
  block of point r / 5000, so after the pass the result array is that function everywhere — whatever the
  contents of the buffers were when the pass was entered.
-/
import proofs.«101911_j71854802862599_1_alg».proof.Proof.Gen.KernelIdeal.Frame
import proofs.«101911_j71854802862599_1_alg».proof.Proof.MatmulAtIndex
import proofs.«101911_j71854802862599_1_alg».proof.Proof.Spec
import Idealize.ShloMosaic.Lib.Pipeline.Value
import Idealize.ShloMosaic.Lib.ValueIdx

noncomputable section

set_option maxRecDepth 16384

namespace Cert.KernelIdeal.Layer2Transform

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The pass has 20 grid points. -/
theorem point_lt (t : Fin cfg2.N) : t.val < 20 := lt_of_lt_of_eq t.isLt N_2

/-- The printed index maps, decided over the grid: the hidden-feature and result windows move down the rows with
    the point, the weight window stays put. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The hidden-feature block of point t is rows 5000·t … of the hidden feature array. -/
theorem features_block (c : Dev nD) (t : Fin cfg2.N) (p : Fin 5000) (k : Fin 64) :
    iblk2 V c 0 t (ix2 p k : S5000x64.Idx)
      = V c main_v42 (ix2 ⟨t.val * 5000 + p.val, by have := point_lt t; omega⟩ k : S100000x64.Idx) := by
  show V c main_v42 (((cfg2.win 0).blk t).view.emb (ix2 p k : S5000x64.Idx)) = _
  refine congrArg (V c main_v42) (funext fun a => Fin.ext ?_)
  obtain ⟨e0, e1, -⟩ := index_maps t
  match a with
  | ⟨0, _⟩ => show win2_0.index t (0 : Fin 2) * 5000 + 1 * p.val = t.val * 5000 + p.val; omega
  | ⟨1, _⟩ => show win2_0.index t (1 : Fin 2) * 64 + 1 * k.val = k.val; omega

/-- The weight block of every point is the whole weight matrix. -/
theorem weights_block (c : Dev nD) (t : Fin cfg2.N) (k : Fin 64) (q : Fin 19) :
    iblk2 V c 1 t (ix2 k q : S64x19.Idx) = V c main_arg4 (ix2 k q : S64x19.Idx) := by
  show V c main_arg4 (((cfg2.win 1).blk t).view.emb (ix2 k q : S64x19.Idx)) = _
  refine congrArg (V c main_arg4) (funext fun a => Fin.ext ?_)
  obtain ⟨-, -, e2, e3, -⟩ := index_maps t
  match a with
  | ⟨0, _⟩ => show win2_1.index t (0 : Fin 2) * 64 + 1 * k.val = k.val; omega
  | ⟨1, _⟩ => show win2_1.index t (1 : Fin 2) * 19 + 1 * q.val = q.val; omega

/-- What a point stores at block entry y, when its two loaded blocks are rows 5000·t … of X and the whole of W,
    is the transform of X and W at the array index i that y sits at. -/
theorem point_value (x0 : Vec Ideal S5000x64 .f32) (x1 : Vec Ideal S64x19 .f32)
    (X : S100000x64.Idx → EReal) (W : S64x19.Idx → EReal) (t : ℕ) (ht : t < 20)
    (hx : ∀ (p : Fin 5000) (k : Fin 64), x0 (ix2 p k) = X (ix2 ⟨t * 5000 + p.val, by omega⟩ k))
    (hw : ∀ (k : Fin 64) (q : Fin 19), x1 (ix2 k q) = W (ix2 k q))
    (y : S5000x19.Idx) (i : S100000x19.Idx) (h0 : (i 0).val = t * 5000 + (y 0).val) (h1 : (i 1).val = (y 1).val) :
    k2_pay1 x0 x1 y = GcnSpec.product19 X W i := by
  obtain ⟨p, q, rfl⟩ : ∃ (p : Fin 5000) (q : Fin 19), y = ix2 p q := ⟨y 0, y 1, eq_ix2 y⟩
  have hb : t * 5000 + p.val < 100000 := by have := p.isLt; omega
  obtain ⟨r, s, rfl⟩ : ∃ (r : Fin 100000) (s : Fin 19), i = ix2 r s := ⟨i 0, i 1, eq_ix2 i⟩
  have hr : r = ⟨t * 5000 + p.val, hb⟩ := Fin.ext h0
  have hs : s = q := Fin.ext h1
  subst hr hs
  rw [Payload.layer2_product_apply]
  exact Finset.sum_congr rfl fun k _ => congrArg₂ (· * ·) (hx p k) (hw k s)

/-- WHAT POINT t WRITES BACK is block t of the transform of the two arrays as the pass finds them. -/
theorem flushed_eq (c : Dev nD) (t : Fin cfg2.N) :
    (dat2 V c).flushed 2 t
      = ((cfg2.win 2).blk t).view.read (Elt Ideal) (GcnSpec.product19 (V c main_v42) (V c main_arg4)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x19) origin]
  funext j
  obtain ⟨-, -, -, -, e4, e5⟩ := index_maps t
  refine point_value (iblk2 V c 0 t) (iblk2 V c 1 t) (V c main_v42) (V c main_arg4) t.val (point_lt t)
    (features_block V c t) (weights_block V c t) j (((cfg2.win 2).blk t).view.emb j) ?_ ?_
  · show win2_2.index t (0 : Fin 2) * 5000 + 1 * (j 0).val = t.val * 5000 + (j 0).val; omega
  · show win2_2.index t (1 : Fin 2) * 19 + 1 * (j 1).val = (j 1).val; omega

/-- An index of the result array is in point t's block iff each coordinate is in the block's range on its axis. -/
theorem mem_block (t : Fin cfg2.N) (i : S100000x19.Idx) :
    i ∈ ((cfg2.win 2).blk t).view.set
      ↔ ∀ a : Fin 2, win2_2.index t a * S5000x19.size a ≤ (i a).val
          ∧ (i a).val < win2_2.index t a * S5000x19.size a + S5000x19.size a := by
  show i ∈ ((View.whole main_v43).slice (win2_2.rect t)).set ↔ _
  rw [View.set_slice_whole, Rect.mem_set_unit]
  exact Iff.rfl

/-- Every row is in the block of the point numbered by its quotient by 5000. -/
theorem cover (i : S100000x19.Idx) :
    ∃ t : Fin cfg2.N, (cfg2.win 2).flush t = true ∧ i ∈ ((cfg2.win 2).blk t).view.set := by
  have hi0 : (i 0).val < 100000 := (i 0).isLt
  have hi1 : (i 1).val < 19 := (i 1).isLt
  have hN : cfg2.N = 20 := N_2
  let t : Fin cfg2.N := ⟨(i 0).val / 5000, by omega⟩
  have ht : t.val = (i 0).val / 5000 := rfl
  obtain ⟨-, -, -, -, e4, e5⟩ := index_maps t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 19 ≤ (i 1).val ∧ (i 1).val < win2_2.index t (1 : Fin 2) * 19 + 19
    omega

/-- THE RESULT ARRAY after the pass is the transform of the hidden feature and weight arrays as the pass found them. -/
theorem final (c : Dev nD) :
    (dat2 V c).arrAt 2 cfg2.N = GcnSpec.product19 (V c main_v42) (V c main_arg4) :=
  (dat2 V c).arrAt_eq_of_cover 2 (GcnSpec.product19 (V c main_v42) (V c main_arg4))
    (fun t _ => flushed_eq V c t) cover

end Cert.KernelIdeal.Layer2Transform

end
-- ==== Proof.Layer2Bias.lean ====
/-
  The second layer's bias pass over the whole node array.

  The pass runs 20 grid points; point t reads rows 5000·t … 5000·t + 4999 of the aggregated array (all 19
  columns) and the one bias row, and writes the same rows of the result. Entry (p, q) of what it writes is
  a(5000·t + p, q) + b(0, q): the block of one function of the two whole arrays. Every row r lies in the
  block of point r / 5000, so after the pass the result array is that function everywhere — whatever the
  contents of the buffers were when the pass was entered.
-/
import proofs.«101911_j71854802862599_1_alg».proof.Proof.Gen.KernelIdeal.Frame
import proofs.«101911_j71854802862599_1_alg».proof.Proof.BiasAtIndex
import proofs.«101911_j71854802862599_1_alg».proof.Proof.Spec
import Idealize.ShloMosaic.Lib.Pipeline.Value
import Idealize.ShloMosaic.Lib.ValueIdx

noncomputable section

set_option maxRecDepth 16384

namespace Cert.KernelIdeal.Layer2Bias

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The pass has 20 grid points. -/
theorem point_lt (t : Fin cfg3.N) : t.val < 20 := lt_of_lt_of_eq t.isLt N_3

/-- The printed index maps, decided over the grid: the aggregated and result windows move down the rows with the
    point, the bias window stays put. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The aggregated block of point t is rows 5000·t … of the aggregated array. -/
theorem rows_block (c : Dev nD) (t : Fin cfg3.N) (p : Fin 5000) (q : Fin 19) :
    iblk3 V c 0 t (ix2 p q : S5000x19.Idx)
      = V c main_v56 (ix2 ⟨t.val * 5000 + p.val, by have := point_lt t; omega⟩ q : S100000x19.Idx) := by
  show V c main_v56 (((cfg3.win 0).blk t).view.emb (ix2 p q : S5000x19.Idx)) = _
  refine congrArg (V c main_v56) (funext fun a => Fin.ext ?_)
  obtain ⟨e0, e1, -⟩ := index_maps t
  match a with
  | ⟨0, _⟩ => show win3_0.index t (0 : Fin 2) * 5000 + 1 * p.val = t.val * 5000 + p.val; omega
  | ⟨1, _⟩ => show win3_0.index t (1 : Fin 2) * 19 + 1 * q.val = q.val; omega

/-- The bias block of every point is the whole bias row. -/
theorem bias_block (c : Dev nD) (t : Fin cfg3.N) (u : Fin 1) (q : Fin 19) :
    iblk3 V c 1 t (ix2 u q : S1x19.Idx) = V c main_v57 (ix2 u q : S1x19.Idx) := by
  show V c main_v57 (((cfg3.win 1).blk t).view.emb (ix2 u q : S1x19.Idx)) = _
  refine congrArg (V c main_v57) (funext fun a => Fin.ext ?_)
  obtain ⟨-, -, e2, e3, -⟩ := index_maps t
  match a with
  | ⟨0, _⟩ => show win3_1.index t (0 : Fin 2) * 1 + 1 * u.val = u.val; omega
  | ⟨1, _⟩ => show win3_1.index t (1 : Fin 2) * 19 + 1 * q.val = q.val; omega

/-- What a point stores at block entry y, when its two loaded blocks are rows 5000·t … of A and the whole row B,
    is the bias pass of A and B at the array index i that y sits at. -/
theorem point_value (x0 : Vec Ideal S5000x19 .f32) (x1 : Vec Ideal S1x19 .f32)
    (A : S100000x19.Idx → EReal) (B : S1x19.Idx → EReal) (t : ℕ) (ht : t < 20)
    (hx : ∀ (p : Fin 5000) (q : Fin 19), x0 (ix2 p q) = A (ix2 ⟨t * 5000 + p.val, by omega⟩ q))
    (hb : ∀ (u : Fin 1) (q : Fin 19), x1 (ix2 u q) = B (ix2 u q))
    (y : S5000x19.Idx) (i : S100000x19.Idx) (h0 : (i 0).val = t * 5000 + (y 0).val) (h1 : (i 1).val = (y 1).val) :
    k3_pay1 x0 x1 y = GcnSpec.bias19 A B i := by
  obtain ⟨p, q, rfl⟩ : ∃ (p : Fin 5000) (q : Fin 19), y = ix2 p q := ⟨y 0, y 1, eq_ix2 y⟩
  have hlt : t * 5000 + p.val < 100000 := by have := p.isLt; omega
  obtain ⟨r, s, rfl⟩ : ∃ (r : Fin 100000) (s : Fin 19), i = ix2 r s := ⟨i 0, i 1, eq_ix2 i⟩
  have hr : r = ⟨t * 5000 + p.val, hlt⟩ := Fin.ext h0
  have hs : s = q := Fin.ext h1
  subst hr hs
  exact (Payload.layer2_bias_apply x0 x1 p s).trans
    (congrArg₂ (fun a b => a + b) (hx p s) (hb 0 s))

/-- WHAT POINT t WRITES BACK is block t of the bias pass of the two arrays as the pass finds them. -/
theorem flushed_eq (c : Dev nD) (t : Fin cfg3.N) :
    (dat3 V c).flushed 2 t
      = ((cfg3.win 2).blk t).view.read (Elt Ideal) (GcnSpec.bias19 (V c main_v56) (V c main_v57)) := by
  show (cfg3.win 2).cut (grid3.coords t) ((dat3 V c).after 2 t) = _
  rw [after3_2]
  unfold out3_2
  rw [View.canon_unit_zero origin]
  simp only [View.ld_unit_zero (S := S5000x19) origin, View.ld_unit_zero (S := S1x19) origin]
  funext j
  obtain ⟨-, -, -, -, e4, e5⟩ := index_maps t
  refine point_value (iblk3 V c 0 t) (iblk3 V c 1 t) (V c main_v56) (V c main_v57) t.val (point_lt t)
    (rows_block V c t) (bias_block V c t) j (((cfg3.win 2).blk t).view.emb j) ?_ ?_
  · show win3_2.index t (0 : Fin 2) * 5000 + 1 * (j 0).val = t.val * 5000 + (j 0).val; omega
  · show win3_2.index t (1 : Fin 2) * 19 + 1 * (j 1).val = (j 1).val; omega

/-- An index of the result array is in point t's block iff each coordinate is in the block's range on its axis. -/
theorem mem_block (t : Fin cfg3.N) (i : S100000x19.Idx) :
    i ∈ ((cfg3.win 2).blk t).view.set
      ↔ ∀ a : Fin 2, win3_2.index t a * S5000x19.size a ≤ (i a).val
          ∧ (i a).val < win3_2.index t a * S5000x19.size a + S5000x19.size a := by
  show i ∈ ((View.whole main_v58).slice (win3_2.rect t)).set ↔ _
  rw [View.set_slice_whole, Rect.mem_set_unit]
  exact Iff.rfl

/-- Every row is in the block of the point numbered by its quotient by 5000. -/
theorem cover (i : S100000x19.Idx) :
    ∃ t : Fin cfg3.N, (cfg3.win 2).flush t = true ∧ i ∈ ((cfg3.win 2).blk t).view.set := by
  have hi0 : (i 0).val < 100000 := (i 0).isLt
  have hi1 : (i 1).val < 19 := (i 1).isLt
  have hN : cfg3.N = 20 := N_3
  let t : Fin cfg3.N := ⟨(i 0).val / 5000, by omega⟩
  have ht : t.val = (i 0).val / 5000 := rfl
  obtain ⟨-, -, -, -, e4, e5⟩ := index_maps t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 19 ≤ (i 1).val ∧ (i 1).val < win3_2.index t (1 : Fin 2) * 19 + 19
    omega

/-- THE RESULT ARRAY after the pass is the bias pass of the aggregated array and the bias row as the pass found them. -/
theorem final (c : Dev nD) :
    (dat3 V c).arrAt 2 cfg3.N = GcnSpec.bias19 (V c main_v56) (V c main_v57) :=
  (dat3 V c).arrAt_eq_of_cover 2 (GcnSpec.bias19 (V c main_v56) (V c main_v57))
    (fun t _ => flushed_eq V c t) cover

end Cert.KernelIdeal.Layer2Bias

end
-- ==== Proof.Chain.lean ====
/-
  The reference program as the four dense steps around two shared aggregations.

  Both programs aggregate in the same way: every edge (and every self loop) scales its source node's transformed
  row by the edge's normalisation weight and adds it into its destination node's row. That chain — gather,
  scale, scatter-add, with the edge lists and weights computed from the edge array alone — is named here once per
  layer as a function of the transformed array, and never opened. Around it the reference applies a contraction
  over the 64 features, a bias row broadcast down all rows with a maximum against zero, a second contraction,
  and a second bias row: index by index these are the four whole-array functions of the specification.
-/
import proofs.«101911_j71854802862599_1_alg».proof.Proof.Gen.ReferenceIdeal.Read
import proofs.«101911_j71854802862599_1_alg».proof.Proof.Spec
import Idealize.ShloMosaic.Lib.ValueIdx
import Idealize.ShloMosaic.Lib.Pipeline.Value
import Idealize.ShloMosaic.PureOps.Ideal.Laws

noncomputable section

namespace Cert.ReferenceIdeal.Chain

open Cert.ReferenceIdeal Cert.ReferenceIdeal.Gen Cert.ReferenceIdeal.Read
open Idealize.ShloMosaic Idealize.ShloMosaic.TcCoe Idealize.ShloMosaic.ValueIdx

/-! ## The two aggregations -/

/-- First layer: the rows of `hw` gathered at the edges' sources, scaled by the edges' weights and summed into
    the edges' destinations, from the zero array. -/
def aggregate64 (e : (⟨S2x1600000, .i32⟩ : BufTy).Contents (Elt Ideal)) (hw : FVec Ideal S100000x64 .f32) :
    FVec Ideal S100000x64 .f32 :=
  Host.scatterAdd (F := Ideal) scatter_S100000x64_S1700000x1_S1700000x64_1_0_0_1 (val_main_v38 (F := Ideal)) (val_main_v39 (F := Ideal) e)
    (mulf (F := Ideal) (val_main_v36 (F := Ideal) e)
      (Host.gather gather_S100000x64_S1700000x1_S1700000x64_1_0_n_n_0_1_164 hw (val_main_v34 (F := Ideal) e)))

/-- Second layer: the same over 19 columns. -/
def aggregate19 (e : (⟨S2x1600000, .i32⟩ : BufTy).Contents (Elt Ideal)) (hw : FVec Ideal S100000x19 .f32) :
    FVec Ideal S100000x19 .f32 :=
  Host.scatterAdd (F := Ideal) scatter_S100000x19_S1700000x1_S1700000x19_1_0_0_1 (val_main_v56 (F := Ideal)) (val_main_v57 (F := Ideal) e)
    (mulf (F := Ideal) (val_main_v54 (F := Ideal) e)
      (Host.gather gather_S100000x19_S1700000x1_S1700000x19_1_0_n_n_0_1_119 hw (val_main_v52 (F := Ideal) e)))

/-! ## The contractions are the transforms -/

/-- The contraction of an N × 64 array with the 64 × 64 weights is the first transform, entry by entry: the
    one-axis contraction index is re-indexed by k : Fin 64, selecting (r, k) on the left and (k, q) on the right. -/
theorem contraction64_eq (x : FVec Ideal S100000x64 .f32) (w : FVec Ideal S64x64 .f32) :
    Host.dotGeneral (F := Ideal) dot_S100000x64_S64x64_S100000x64_1_0_0_1_n_n none x w = GcnSpec.product64 x w := by
  funext i
  simp only [Host.dotGeneral]
  rw [Ideal.dotGeneral_apply, ← Equiv.sum_comp (contrEquiv1 dot_S100000x64_S64x64_S100000x64_1_0_0_1_n_n 64 rfl rfl).symm]
  unfold GcnSpec.product64
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i
      ((contrEquiv1 dot_S100000x64_S64x64_S100000x64_1_0_0_1_n_n 64 rfl rfl).symm k) = ix2 (i 0) k :=
    funext fun a => Fin.ext (by
      match a with
      | ⟨0, _⟩ => exact lhs_main_v27_0 _ _
      | ⟨1, _⟩ => exact (lhs_main_v27_1 _ _).trans hk)
  have er : dot_S100000x64_S64x64_S100000x64_1_0_0_1_n_n.rhsIdx i
      ((contrEquiv1 dot_S100000x64_S64x64_S100000x64_1_0_0_1_n_n 64 rfl rfl).symm k) = ix2 k (i 1) :=
    funext fun a => Fin.ext (by
      match a with
      | ⟨0, _⟩ => exact (rhs_main_v27_0 _ _).trans hk
      | ⟨1, _⟩ => exact rhs_main_v27_1 _ _)
  rw [el, er]
  rfl

/-- The contraction of an N × 64 array with the 64 × 19 weights is the second transform, entry by entry. -/
theorem contraction19_eq (x : FVec Ideal S100000x64 .f32) (w : FVec Ideal S64x19 .f32) :
    Host.dotGeneral (F := Ideal) dot_S100000x64_S64x19_S100000x19_1_0_0_1_n_n none x w = GcnSpec.product19 x w := by
  funext i
  simp only [Host.dotGeneral]
  rw [Ideal.dotGeneral_apply, ← Equiv.sum_comp (contrEquiv1 dot_S100000x64_S64x19_S100000x19_1_0_0_1_n_n 64 rfl rfl).symm]
  unfold GcnSpec.product19
  refine Finset.sum_congr rfl fun k _ => ?_
  have hk := contrEquiv1_symm_val dot_S100000x64_S64x19_S100000x19_1_0_0_1_n_n 64 rfl rfl k
  have el : dot_S100000x64_S64x19_S100000x19_1_0_0_1_n_n.lhsIdx i
      ((contrEquiv1 dot_S100000x64_S64x19_S100000x19_1_0_0_1_n_n 64 rfl rfl).symm k) = ix2 (i 0) k :=
    funext fun a => Fin.ext (by
      match a with
      | ⟨0, _⟩ => exact lhs_main_v45_0 _ _
      | ⟨1, _⟩ => exact (lhs_main_v45_1 _ _).trans hk)
  have er : dot_S100000x64_S64x19_S100000x19_1_0_0_1_n_n.rhsIdx i
      ((contrEquiv1 dot_S100000x64_S64x19_S100000x19_1_0_0_1_n_n 64 rfl rfl).symm k) = ix2 k (i 1) :=
    funext fun a => Fin.ext (by
      match a with
      | ⟨0, _⟩ => exact (rhs_main_v45_0 _ _).trans hk
      | ⟨1, _⟩ => exact rhs_main_v45_1 _ _)
  rw [el, er]
  rfl

/-! ## The bias steps are the bias passes -/

/-- Adding the bias vector broadcast to a row and then down all rows, and taking the maximum with the zero array,
    is the first bias pass with any 1 × 64 row B that holds the bias vector. -/
theorem biasRelu_eq (a : FVec Ideal S100000x64 .f32) (b : FVec Ideal S64 .f32)
    (B : (⟨2, ![1, 64]⟩ : Shape).Idx → EReal) (hB : ∀ q : Fin 64, B (ix2 (0 : Fin 1) q) = b (ix1 q)) :
    maximumf (F := Ideal) (addf (F := Ideal) a (val_main_v42 (F := Ideal) b)) (val_main_call0_v0 (F := Ideal)) = GcnSpec.biasRelu64 a B := by
  funext i
  obtain ⟨r, q, rfl⟩ : ∃ (r : Fin 100000) (q : Fin 64), i = ix2 r q := ⟨i 0, i 1, eq_ix2 i⟩
  show max (a (ix2 r q) + val_main_v42 (F := Ideal) b (ix2 r q)) (val_main_call0_v0 (F := Ideal) (ix2 r q))
    = max (a (ix2 r q) + B (ix2 (0 : Fin 1) q)) (Ideal.ofBits .f32 0x00000000#32)
  rw [val_main_v42_apply, val_main_v41_apply, val_main_call0_v0_apply, hB]
  have hi : idx_main_v41 (idx_main_v42 (ix2 r q : S100000x64.Idx)) = ix1 q :=
    funext fun d => by match d with | ⟨0, _⟩ => rfl
  rw [hi]
  rfl

/-- Adding the bias vector broadcast to a row and then down all rows is the second bias pass with any 1 × 19 row B
    that holds the bias vector. -/
theorem bias_eq (a : FVec Ideal S100000x19 .f32) (b : FVec Ideal S19 .f32)
    (B : (⟨2, ![1, 19]⟩ : Shape).Idx → EReal) (hB : ∀ q : Fin 19, B (ix2 (0 : Fin 1) q) = b (ix1 q)) :
    addf (F := Ideal) a (val_main_v60 (F := Ideal) b) = GcnSpec.bias19 a B := by
  funext i
  obtain ⟨r, q, rfl⟩ : ∃ (r : Fin 100000) (q : Fin 19), i = ix2 r q := ⟨i 0, i 1, eq_ix2 i⟩
  show a (ix2 r q) + val_main_v60 (F := Ideal) b (ix2 r q) = a (ix2 r q) + B (ix2 (0 : Fin 1) q)
  rw [val_main_v60_apply, val_main_v59_apply, hB]
  have hi : idx_main_v59 (idx_main_v60 (ix2 r q : S100000x19.Idx)) = ix1 q :=
    funext fun d => by match d with | ⟨0, _⟩ => rfl
  rw [hi]

/-! ## The reference's result -/

/-- The reference's result, as a function of the six argument arrays: bias₂ ∘ aggregate ∘ transform₂ ∘ (rectified
    bias₁) ∘ aggregate ∘ transform₁, for any rows B1, B2 holding the two bias vectors. -/
theorem result_eq (x0 : (⟨S100000x64, .f32⟩ : BufTy).Contents (Elt Ideal)) (e : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x19, .f32⟩ : BufTy).Contents (Elt Ideal)) (x5 : (⟨S19, .f32⟩ : BufTy).Contents (Elt Ideal))
    (B1 : (⟨2, ![1, 64]⟩ : Shape).Idx → EReal) (hB1 : ∀ q : Fin 64, B1 (ix2 (0 : Fin 1) q) = x3 (ix1 q))
    (B2 : (⟨2, ![1, 19]⟩ : Shape).Idx → EReal) (hB2 : ∀ q : Fin 19, B2 (ix2 (0 : Fin 1) q) = x5 (ix1 q)) :
    val_main_v61 (F := Ideal) x0 e x2 x3 x4 x5
      = GcnSpec.bias19 (aggregate19 e (GcnSpec.product19 (GcnSpec.biasRelu64 (aggregate64 e (GcnSpec.product64 x0 x2)) B1) x4)) B2 := by
  have h1 : val_main_v40 (F := Ideal) x0 e x2 = aggregate64 e (GcnSpec.product64 x0 x2) := by
    unfold val_main_v40 val_main_v37 val_main_v35 val_main_v27 aggregate64
    rw [contraction64_eq]
  have h2 : val_main_v44 (F := Ideal) x0 e x2 x3 = GcnSpec.biasRelu64 (aggregate64 e (GcnSpec.product64 x0 x2)) B1 := by
    unfold val_main_v44 val_main_v43
    rw [h1, biasRelu_eq _ x3 B1 hB1]
  have h3 : val_main_v45 (F := Ideal) x0 e x2 x3 x4
      = GcnSpec.product19 (GcnSpec.biasRelu64 (aggregate64 e (GcnSpec.product64 x0 x2)) B1) x4 := by
    unfold val_main_v45
    rw [h2, contraction19_eq]
  have h4 : val_main_v58 (F := Ideal) x0 e x2 x3 x4
      = aggregate19 e (GcnSpec.product19 (GcnSpec.biasRelu64 (aggregate64 e (GcnSpec.product64 x0 x2)) B1) x4) := by
    unfold val_main_v58 val_main_v55 val_main_v53 aggregate19
    rw [h3]
  unfold val_main_v61
  rw [h4, bias_eq _ x5 B2 hB2]

end Cert.ReferenceIdeal.Chain

end
-- ==== Proof.FoldWalk.lean ====
/-
  The result array of the tiled program as a function of the six argument arrays.

  The contents of the device's buffers are followed from boundary to boundary. A stretch of array operations
  rewrites exactly the buffers its operations write; a pass rewrites exactly its result array, to the whole-array
  function of its two input arrays as it finds them. The edge lists and the edge weights are computed in the first
  stretch from the edge array alone and no later segment writes them, so both aggregations read the same lists
  and weights; the weights and biases are arguments and are never written. Walking back from the last boundary:
  the result is the second bias pass of the second aggregation of the second transform of the rectified first
  bias pass of the first aggregation of the first transform of the features.
-/
import proofs.«101911_j71854802862599_1_alg».proof.Proof.Gen.KernelIdeal.Frame
import proofs.«101911_j71854802862599_1_alg».proof.Proof.Layer1Transform
import proofs.«101911_j71854802862599_1_alg».proof.Proof.Layer1Bias
import proofs.«101911_j71854802862599_1_alg».proof.Proof.Layer2Transform
import proofs.«101911_j71854802862599_1_alg».proof.Proof.Layer2Bias
import proofs.«101911_j71854802862599_1_alg».proof.Proof.Chain
import Idealize.ShloMosaic.Lib.StableHlo.Run
import Idealize.ShloMosaic.Lib.ValueLayout

noncomputable section

set_option maxRecDepth 16384

namespace Cert.KernelIdeal.FoldWalk

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.Chain (aggregate64 aggregate19)
open Cert.ReferenceIdeal.Read

variable (m : (ℓ : Loc nD τ sig) → Buf (Elt Ideal) ℓ) (ρ : Dev nD → PrngReg) (c : Dev nD)

/-! ## The first stretch: edge lists and edge weights from the edge array; the arguments untouched -/

theorem entry0_features : W1 m ρ c (Proc.devRef .tc main_arg0) = m ((c : Thread nD τ).loc main_arg0) := by
  show StableHlo.after hostOps0 (W0 m ρ c) (Proc.devRef .tc main_arg0) = _
  after_results <;> rfl

theorem entry0_weights : W1 m ρ c (Proc.devRef .tc main_arg2) = m ((c : Thread nD τ).loc main_arg2) := by
  show StableHlo.after hostOps0 (W0 m ρ c) (Proc.devRef .tc main_arg2) = _
  after_results <;> rfl

theorem entry0_bias1 : W1 m ρ c (Proc.devRef .tc main_arg3) = m ((c : Thread nD τ).loc main_arg3) := by
  show StableHlo.after hostOps0 (W0 m ρ c) (Proc.devRef .tc main_arg3) = _
  after_results <;> rfl

theorem entry0_weights2 : W1 m ρ c (Proc.devRef .tc main_arg4) = m ((c : Thread nD τ).loc main_arg4) := by
  show StableHlo.after hostOps0 (W0 m ρ c) (Proc.devRef .tc main_arg4) = _
  after_results <;> rfl

theorem entry0_bias2 : W1 m ρ c (Proc.devRef .tc main_arg5) = m ((c : Thread nD τ).loc main_arg5) := by
  show StableHlo.after hostOps0 (W0 m ρ c) (Proc.devRef .tc main_arg5) = _
  after_results <;> rfl

/-- The edges' sources (with the self loops appended). -/
theorem sources0 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results <;> rfl

/-- The edges' destinations (with the self loops appended). -/
theorem destinations0 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results <;> rfl

/-- The edges' normalisation weights. -/
theorem weights0 : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  after_results_simp
  unfold val_main_v26 val_main_v18 val_main_v25 val_main_v11 val_main_v10 val_main_v8 val_main_cst_0 val_main_v9 val_main_v7 val_main_cst
    val_main_v17 val_main_v16 val_main_v13 val_main_v12 val_main_c val_main_v15 val_main_v14 val_main_c_1
    val_main_v24 val_main_v23 val_main_v20 val_main_v19 val_main_c_2 val_main_v22 val_main_v21 val_main_c_3
    val_main_v3 val_main_v2 val_main_v1 val_main_v6 val_main_v5 val_main_v4 val_main_v0
  rfl

/-! ## The first transform pass -/

/-- After the first pass the transformed array is the first transform of the features and the first weights. -/
theorem transform1 : W2 m ρ c (Proc.devRef .tc main_v27) = GcnSpec.product64 (m ((c : Thread nD τ).loc main_arg0)) (m ((c : Thread nD τ).loc main_arg2)) := by
  refine (W2_arr m ρ c 2).trans ((Layer1Transform.final (V1 m ρ) c).trans ?_)
  show GcnSpec.product64 (W1 m ρ c (Proc.devRef .tc main_arg0)) (W1 m ρ c (Proc.devRef .tc main_arg2)) = _
  rw [entry0_features, entry0_weights]

/-! ## The second stretch: the first aggregation, and the first bias vector as a row -/

/-- The aggregated array of the first layer. -/
theorem aggregate1 : W3 m ρ c (Proc.devRef .tc main_v40) = aggregate64 (m ((c : Thread nD τ).loc main_arg1)) (GcnSpec.product64 (m ((c : Thread nD τ).loc main_arg0)) (m ((c : Thread nD τ).loc main_arg2))) := by
  show StableHlo.after hostOps1 (W2 m ρ c) (Proc.devRef .tc main_v40) = _
  after_results_simp
  rw [W2_of_ne m ρ c main_v26 (by decide), W2_of_ne m ρ c main_v3 (by decide), W2_of_ne m ρ c main_v6 (by decide),
    weights0, sources0, destinations0, transform1]
  unfold aggregate64 val_main_v38 val_main_cst_6 val_main_v39 val_main_v36 val_main_v28 val_main_v34 val_main_v33 val_main_v30
    val_main_v29 val_main_c_4 val_main_v32 val_main_v31 val_main_c_5
  rfl

/-- The first bias vector as a 1 × 64 row. -/
theorem biasRow1 : W3 m ρ c (Proc.devRef .tc main_v41) = shapeCast S1x64 (m ((c : Thread nD τ).loc main_arg3)) shapeCasts_S64_S1x64 := by
  show StableHlo.after hostOps1 (W2 m ρ c) (Proc.devRef .tc main_v41) = _
  after_results
  rw [W2_of_ne m ρ c main_arg3 (by decide), entry0_bias1]
  try rfl

/-- The second weights reach the second transform pass as launched. -/
theorem entry2_weights : W4 m ρ c (Proc.devRef .tc main_arg4) = m ((c : Thread nD τ).loc main_arg4) := by
  rw [W4_of_ne m ρ c main_arg4 (by decide)]
  show StableHlo.after hostOps1 (W2 m ρ c) (Proc.devRef .tc main_arg4) = _
  after_results
  rw [W2_of_ne m ρ c main_arg4 (by decide), entry0_weights2]

/-! ## The first bias pass and the second transform pass -/

/-- After the first bias pass: the rectified sum of the first aggregation and the first bias row. -/
theorem biasPass1 : W4 m ρ c (Proc.devRef .tc main_v42) = GcnSpec.biasRelu64 (aggregate64 (m ((c : Thread nD τ).loc main_arg1)) (GcnSpec.product64 (m ((c : Thread nD τ).loc main_arg0)) (m ((c : Thread nD τ).loc main_arg2)))) (shapeCast S1x64 (m ((c : Thread nD τ).loc main_arg3)) shapeCasts_S64_S1x64) := by
  refine (W4_arr m ρ c 2).trans ((Layer1Bias.final (V3 m ρ) c).trans ?_)
  show GcnSpec.biasRelu64 (W3 m ρ c (Proc.devRef .tc main_v40)) (W3 m ρ c (Proc.devRef .tc main_v41)) = _
  rw [aggregate1, biasRow1]

/-- After the second transform pass: the second transform of the hidden features and the second weights. -/
theorem transform2 : W5 m ρ c (Proc.devRef .tc main_v43) = GcnSpec.product19 (GcnSpec.biasRelu64 (aggregate64 (m ((c : Thread nD τ).loc main_arg1)) (GcnSpec.product64 (m ((c : Thread nD τ).loc main_arg0)) (m ((c : Thread nD τ).loc main_arg2)))) (shapeCast S1x64 (m ((c : Thread nD τ).loc main_arg3)) shapeCasts_S64_S1x64)) (m ((c : Thread nD τ).loc main_arg4)) := by
  refine (W5_arr m ρ c 2).trans ((Layer2Transform.final (V4 m ρ) c).trans ?_)
  show GcnSpec.product19 (W4 m ρ c (Proc.devRef .tc main_v42)) (W4 m ρ c (Proc.devRef .tc main_arg4)) = _
  rw [biasPass1, entry2_weights]

/-! ## The edge lists, the edge weights and the second bias vector are still what the first stretch left -/

theorem sources5 : W5 m ρ c (Proc.devRef .tc main_v3) = Cert.ReferenceIdeal.Read.val_main_v3 (F := Ideal) (m ((c : Thread nD τ).loc main_arg1)) := by
  rw [W5_of_ne m ρ c main_v3 (by decide), W4_of_ne m ρ c main_v3 (by decide)]
  show StableHlo.after hostOps1 (W2 m ρ c) (Proc.devRef .tc main_v3) = _
  after_results
  rw [W2_of_ne m ρ c main_v3 (by decide), sources0]

theorem destinations5 : W5 m ρ c (Proc.devRef .tc main_v6) = Cert.ReferenceIdeal.Read.val_main_v6 (F := Ideal) (m ((c : Thread nD τ).loc main_arg1)) := by
  rw [W5_of_ne m ρ c main_v6 (by decide), W4_of_ne m ρ c main_v6 (by decide)]
  show StableHlo.after hostOps1 (W2 m ρ c) (Proc.devRef .tc main_v6) = _
  after_results
  rw [W2_of_ne m ρ c main_v6 (by decide), destinations0]

theorem weights5 : W5 m ρ c (Proc.devRef .tc main_v26) = Cert.ReferenceIdeal.Read.val_main_v26 (F := Ideal) (m ((c : Thread nD τ).loc main_arg1)) := by
  rw [W5_of_ne m ρ c main_v26 (by decide), W4_of_ne m ρ c main_v26 (by decide)]
  show StableHlo.after hostOps1 (W2 m ρ c) (Proc.devRef .tc main_v26) = _
  after_results
  rw [W2_of_ne m ρ c main_v26 (by decide), weights0]

theorem entry5_bias2 : W5 m ρ c (Proc.devRef .tc main_arg5) = m ((c : Thread nD τ).loc main_arg5) := by
  rw [W5_of_ne m ρ c main_arg5 (by decide), W4_of_ne m ρ c main_arg5 (by decide)]
  show StableHlo.after hostOps1 (W2 m ρ c) (Proc.devRef .tc main_arg5) = _
  after_results
  rw [W2_of_ne m ρ c main_arg5 (by decide), entry0_bias2]

/-! ## The third stretch: the second aggregation, and the second bias vector as a row -/

/-- The aggregated array of the second layer. -/
theorem aggregate2 : W6 m ρ c (Proc.devRef .tc main_v56) = aggregate19 (m ((c : Thread nD τ).loc main_arg1)) (GcnSpec.product19 (GcnSpec.biasRelu64 (aggregate64 (m ((c : Thread nD τ).loc main_arg1)) (GcnSpec.product64 (m ((c : Thread nD τ).loc main_arg0)) (m ((c : Thread nD τ).loc main_arg2)))) (shapeCast S1x64 (m ((c : Thread nD τ).loc main_arg3)) shapeCasts_S64_S1x64)) (m ((c : Thread nD τ).loc main_arg4))) := by
  show StableHlo.after hostOps3 (W5 m ρ c) (Proc.devRef .tc main_v56) = _
  after_results_simp
  rw [weights5, sources5, destinations5, transform2]
  unfold aggregate19 val_main_v56 val_main_cst_9 val_main_v57 val_main_v54 val_main_v46 val_main_v52 val_main_v51 val_main_v48
    val_main_v47 val_main_c_7 val_main_v50 val_main_v49 val_main_c_8
  rfl

/-- The second bias vector as a 1 × 19 row. -/
theorem biasRow2 : W6 m ρ c (Proc.devRef .tc main_v57) = shapeCast S1x19 (m ((c : Thread nD τ).loc main_arg5)) shapeCasts_S19_S1x19 := by
  show StableHlo.after hostOps3 (W5 m ρ c) (Proc.devRef .tc main_v57) = _
  after_results
  rw [entry5_bias2]
  try rfl

/-! ## The last bias pass -/

/-- THE RESULT ARRAY at the last boundary, as a function of the six argument arrays. -/
theorem result : W7 m ρ c (Proc.devRef .tc main_v58) = GcnSpec.bias19 (aggregate19 (m ((c : Thread nD τ).loc main_arg1)) (GcnSpec.product19 (GcnSpec.biasRelu64 (aggregate64 (m ((c : Thread nD τ).loc main_arg1)) (GcnSpec.product64 (m ((c : Thread nD τ).loc main_arg0)) (m ((c : Thread nD τ).loc main_arg2)))) (shapeCast S1x64 (m ((c : Thread nD τ).loc main_arg3)) shapeCasts_S64_S1x64)) (m ((c : Thread nD τ).loc main_arg4)))) (shapeCast S1x19 (m ((c : Thread nD τ).loc main_arg5)) shapeCasts_S19_S1x19) := by
  refine (W7_arr m ρ c 2).trans ((Layer2Bias.final (V6 m ρ) c).trans ?_)
  show GcnSpec.bias19 (W6 m ρ c (Proc.devRef .tc main_v56)) (W6 m ρ c (Proc.devRef .tc main_v57)) = _
  rw [aggregate2, biasRow2]

end Cert.KernelIdeal.FoldWalk

end
-- ==== Proof.lean ====
/-
  A two-layer graph convolution on 100000 nodes, tiled, against the same network written with whole arrays.

  Both programs compute, from the features x (N × 64), the edge array, weights W1 (64 × 64), W2 (64 × 19) and
  biases b1, b2:
      h   = max (A (x · W1) + b1) 0,        out = A (h · W2) + b2,
  where A aggregates along the edges: it gathers each edge's source row, scales it by the edge's normalisation
  weight and adds it into the edge's destination row (self loops included). The edge lists, the weights and A
  itself are the same array operations in both programs. The tiled program replaces the two products and the
  two bias steps by passes over blocks of 5000 rows; over the extended reals a block product into a zero
  accumulator, with its operands' change of float format the identity, is the same finite sum as the whole-array
  contraction, and a bias row broadcast down a block is the bias vector broadcast down the array. Only
  re-association of finite sums is used, so nothing is asked of the inputs beyond what the claim states.

  The three frame claims are the generated runs. The idealization rewrote no operation, so `preserves` has
  nothing to say. For `algebraic` the tiled program's run is read with its result named, the result is walked
  back through the segments to the arguments, and the reference's run is its generated term, which is the same
  composition of the four dense steps around the two aggregations.
-/
import proofs.«101911_j71854802862599_1_alg».proof.Defs
import proofs.«101911_j71854802862599_1_alg».proof.Proof.Gen.Kernel
import proofs.«101911_j71854802862599_1_alg».proof.Proof.Gen.Kernel.Frame
import proofs.«101911_j71854802862599_1_alg».proof.Proof.Gen.KernelIdeal
import proofs.«101911_j71854802862599_1_alg».proof.Proof.Gen.KernelIdeal.Frame
import proofs.«101911_j71854802862599_1_alg».proof.Proof.Gen.ReferenceIdeal
import proofs.«101911_j71854802862599_1_alg».proof.Proof.Gen.Pre_finite_inputs
import proofs.«101911_j71854802862599_1_alg».proof.Proof.Gen.ReferenceIdeal.Run
import proofs.«101911_j71854802862599_1_alg».proof.Proof.Gen.ReferenceIdeal.Read
import proofs.«101911_j71854802862599_1_alg».proof.Proof.NamedRun
import proofs.«101911_j71854802862599_1_alg».proof.Proof.FoldWalk
import proofs.«101911_j71854802862599_1_alg».proof.Proof.Chain
import Idealize.ShloMosaic.Lib.ValueLayout
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames -/

theorem frame_kernel : Cert.frame_Kernel := fun m ρ _ => Cert.Kernel.Gen.frame m ρ

theorem frame_kernel_ideal : Cert.frame_KernelIdeal := fun m ρ _ => Cert.KernelIdeal.Gen.frame m ρ

/-- The reference has no pass of its own: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## Equal results over the extended reals -/

section
open Cert.KernelIdeal Cert.KernelIdeal.Gen
open Cert.ReferenceIdeal.Chain (aggregate64 aggregate19)

/-- The tiled program's run with its result read: every weakly fair execution ends with the result array at the
    composition of the four dense steps around the two aggregations, of the launch contents of the arguments. -/
theorem tiled_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v58)
        = GcnSpec.bias19 (aggregate19 (m ((c : Thread nD τ).loc main_arg1)) (GcnSpec.product19 (GcnSpec.biasRelu64 (aggregate64 (m ((c : Thread nD τ).loc main_arg1)) (GcnSpec.product64 (m ((c : Thread nD τ).loc main_arg0)) (m ((c : Thread nD τ).loc main_arg2)))) (shapeCast S1x64 (m ((c : Thread nD τ).loc main_arg3)) shapeCasts_S64_S1x64)) (m ((c : Thread nD τ).loc main_arg4)))) (shapeCast S1x19 (m ((c : Thread nD τ).loc main_arg5)) shapeCasts_S19_S1x19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.KernelIdeal.defs (F := Ideal)) _ _).mono
    (fun r h c => ⟨(h c).1.trans (Cert.KernelIdeal.FoldWalk.result m ρ c), (h c).2⟩)
    (Cert.KernelIdeal.NamedRun.run m ρ)
end

/-- From memories agreeing on the arguments the two programs end with the same result array: the tiled program's
    by its run read back, the reference's by its generated run, whose term is the same composition. The bias
    vectors enter the tiled passes as rows made by a cast [d] → [1, d], which holds the vector at (0, q). -/
theorem algebraic : Cert.algebraic_KernelIdeal_ReferenceIdeal := by
  intro m ρ m' ρ' _ hagree
  refine ⟨_, tiled_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1,
    (hagree c).2.2.2.2.1, (hagree c).2.2.2.2.2]
  exact Cert.ReferenceIdeal.Chain.result_eq _ _ _ _ _ _
    _ (fun q => shapeCast_a_1a_apply _ _ (0 : Fin 1) q)
    _ (fun q => shapeCast_a_1a_apply _ _ (0 : Fin 1) q)

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
